-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S40000x128 .f32) (main_arg1 : FVec F S640000x128 .f32) (main_arg2 : IVec S640000 32) (main_arg3 : IVec S640000 32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S40000x128 : Shape := ⟨2, ![40000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S1x128 : Shape := ⟨2, ![1, 128]⟩
abbrev S4000x128 : Shape := ⟨2, ![4000, 128]⟩
abbrev S8000x128 : Shape := ⟨2, ![8000, 128]⟩

abbrev nBuf : Space → Nat
  | .hbm => 57
  | .vmem => 15
  | .smem => 0
  | _ => 0

abbrev bufTy : (tb : Table) → Fin (tcTables nBuf tb) → BufTy
  | .hbm, ⟨0, _⟩ => ⟨S40000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .f32⟩
  | .hbm, ⟨20, _⟩ => ⟨S40000x128, .f32⟩
  | .hbm, ⟨21, _⟩ => ⟨S640000x1, .i32⟩
  | .hbm, ⟨22, _⟩ => ⟨S40000x128, .f32⟩
  | .hbm, ⟨23, _⟩ => ⟨S_, .f32⟩
  | .hbm, ⟨24, _⟩ => ⟨S40000x128, .f32⟩
  | .hbm, ⟨25, _⟩ => ⟨S640000x1, .i32⟩
  | .hbm, ⟨26, _⟩ => ⟨S40000x128, .f32⟩
  | .hbm, ⟨27, _⟩ => ⟨S40000x128, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x128, .f32⟩
  | .hbm, ⟨37, _⟩ => ⟨S_, .f32⟩
  | .hbm, ⟨38, _⟩ => ⟨S40000x128, .f32⟩
  | .hbm, ⟨39, _⟩ => ⟨S640000x1, .i32⟩
  | .hbm, ⟨40, _⟩ => ⟨S40000x128, .f32⟩
  | .hbm, ⟨41, _⟩ => ⟨S_, .f32⟩
  | .hbm, ⟨42, _⟩ => ⟨S40000x128, .f32⟩
  | .hbm, ⟨43, _⟩ => ⟨S640000x1, .i32⟩
  | .hbm, ⟨44, _⟩ => ⟨S40000x128, .f32⟩
  | .hbm, ⟨45, _⟩ => ⟨S40000x128, .f32⟩
  | .hbm, ⟨46, _⟩ => ⟨S128x128, .f32⟩
  | .hbm, ⟨47, _⟩ => ⟨S128x128, .bf16⟩
  | .hbm, ⟨48, _⟩ => ⟨S128x128, .f32⟩
  | .hbm, ⟨49, _⟩ => ⟨S128x128, .bf16⟩
  | .hbm, ⟨50, _⟩ => ⟨S128, .f32⟩
  | .hbm, ⟨51, _⟩ => ⟨S1x128, .f32⟩
  | .hbm, ⟨52, _⟩ => ⟨S40000x128, .f32⟩
  | .hbm, ⟨53, _⟩ => ⟨S128x128, .f32⟩
  | .hbm, ⟨54, _⟩ => ⟨S128x128, .bf16⟩
  | .hbm, ⟨55, _⟩ => ⟨S1x128, .f32⟩
  | .hbm, ⟨56, _⟩ => ⟨S640000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S8000x128, .f32⟩
  | .local _ .vmem, ⟨10, _⟩ => ⟨S8000x128, .f32⟩
  | .local _ .vmem, ⟨11, _⟩ => ⟨S128x128, .bf16⟩
  | .local _ .vmem, ⟨12, _⟩ => ⟨S1x128, .f32⟩
  | .local _ .vmem, ⟨13, _⟩ => ⟨S8000x128, .f32⟩
  | .local _ .vmem, ⟨14, _⟩ => ⟨S8000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  transposes_S128x128_S128x128_1_0 : S128x128.Transposes [1, 0] S128x128
  bitsLt_bf16_f32 : FTy.bits .bf16 < FTy.bits .f32
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S8000x128_S8000x128_0_0 : ∀ a, (![0, 0] : Fin 2 → Nat) a + S8000x128.size a ≤ S8000x128.size a
  h_S8000x128 : 0 < S8000x128.numel
  broadcasts_S1x128_S8000x128 : S1x128.Broadcasts S8000x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  dot_S8000x128_S128x128_S8000x128_1_0_0_1_n_n_wf : DotDims.WF S8000x128 S128x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S40000x128.size a
  hwx0_5 : ∀ i : grid0.Coords, EltTy.bits .f32 = 32 ∨ (Rect.block (s := S40000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S640000x128.size a
  hwx1_0 : ∀ i : grid1.Coords, EltTy.bits .f32 = 32 ∨ (Rect.block (s := S640000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S640000x128.size a
  hwx1_3 : ∀ i : grid1.Coords, EltTy.bits .f32 = 32 ∨ (Rect.block (s := S640000x128) S8000x128.size (cc1_transform_3 i) (hinb1_3 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S40000x128 : Shape := ⟨2, ![40000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S640000x128, .f32⟩
  | .hbm, ⟨20, _⟩ => ⟨S_, .f32⟩
  | .hbm, ⟨21, _⟩ => ⟨S40000x128, .f32⟩
  | .hbm, ⟨22, _⟩ => ⟨S640000x1, .i32⟩
  | .hbm, ⟨23, _⟩ => ⟨S40000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x128, .f32⟩
  | .hbm, ⟨34, _⟩ => ⟨S_, .f32⟩
  | .hbm, ⟨35, _⟩ => ⟨S40000x128, .f32⟩
  | .hbm, ⟨36, _⟩ => ⟨S640000x1, .i32⟩
  | .hbm, ⟨37, _⟩ => ⟨S40000x128, .f32⟩
  | .hbm, ⟨38, _⟩ => ⟨S128x128, .f32⟩
  | .hbm, ⟨39, _⟩ => ⟨S40000x128, .f32⟩
  | .hbm, ⟨40, _⟩ => ⟨S1x128, .f32⟩
  | .hbm, ⟨41, _⟩ => ⟨S40000x128, .f32⟩
  | .hbm, ⟨42, _⟩ => ⟨S40000x128, .f32⟩
  | .hbm, ⟨43, _⟩ => ⟨S128x128, .f32⟩
  | .hbm, ⟨44, _⟩ => ⟨S40000x128, .f32⟩
  | .hbm, ⟨45, _⟩ => ⟨S40000x128, .f32⟩
  | .hbm, ⟨46, _⟩ => ⟨S1x128, .f32⟩
  | .hbm, ⟨47, _⟩ => ⟨S40000x128, .f32⟩
  | .hbm, ⟨48, _⟩ => ⟨S40000x128, .f32⟩
  | .hbm, ⟨49, _⟩ => ⟨S128x128, .f32⟩
  | .hbm, ⟨50, _⟩ => ⟨S640000x128, .f32⟩
  | .hbm, ⟨51, _⟩ => ⟨S1x128, .f32⟩
  | .hbm, ⟨52, _⟩ => ⟨S640000x128, .f32⟩
  | .hbm, ⟨53, _⟩ => ⟨S640000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  transposes_S128x128_S128x128_1_0 : S128x128.Transposes [1, 0] S128x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S1x128_S640000x128_0_1 : S1x128.BroadcastsInDim S640000x128 (![0, 1] : Fin 2 → Fin S640000x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  dot_S640000x128_S128x128_S640000x128_1_0_0_1_n_n_wf : DotDims.WF S640000x128 S128x128 S640000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf

class Facts : Prop extends Facts₀ where

variable [Facts]
-- ==== Proof.KernelRun.lean ====
/-
  The idealized kernel's run with its two result arrays named.

  @main is two stretches of host operations, each followed by a pipelined region.  The run below is the
  one that proves the frame (the same segments, the same thread states), read at the end not only at the
  argument arrays but also at the two result arrays: each ends at the contents the last segment boundary
  gives it, the fold `W4` of the host stretches and the regions' write-backs from the launch memory.
-/
import proofs.«138060_j48103633715705_2_alg».proof.Proof.Gen.KernelIdeal.Frame

set_option maxRecDepth 16384

noncomputable section

namespace Cert.KernelIdeal.Outputs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each result array at the last
    boundary's contents and every argument array as launched. -/
theorem run_outputs : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Outputs

end
-- ==== Proof.KernelHost.lean ====
/-
  The host side of the idealized kernel's program: what each region finds in the arrays it reads.

  Before the first region @main computes, from the arguments, the two aggregated message arrays (for each
  direction: the scatter-add of the gathered node rows minus the scatter-add of the edge rows, both into a
  zero array), the two weight matrices transposed, and the two biases added and laid out as a row.  Between the
  regions it transposes the third weight matrix and lays the third bias out as a row.  No host operation and no
  region writes an argument, so the second region still finds the edge embeddings as launched, and the first
  region's output array is not touched after its region.
-/
import proofs.«138060_j48103633715705_2_alg».proof.Proof.Gen.KernelIdeal.Frame
import Idealize.ShloMosaic.Lib.StableHlo.Run
import Idealize.ShloMosaic.PureOps.Ideal

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

/-- An index vector with its negative entries wrapped by the number of nodes, as a column of start indices. -/
def wrapCol (x : IVec S640000 32) : IVec S640000x1 32 :=
  broadcastInDim S640000x1 ![0] bcast_S640000_S640000x1_0
    (select (cmpi .slt x (broadcastInDim S640000 ![] bcast_S_S640000 (constantI S_ 32 0#32)))
      (addi x (broadcastInDim S640000 ![] bcast_S_S640000 (constantI S_ 32 40000#32))) x)

/-- An index vector as a column of scatter indices. -/
def col (x : IVec S640000 32) : IVec S640000x1 32 :=
  broadcastInDim S640000x1 ![0] bcast_S640000_S640000x1_0 x

/-- The zero array the messages are summed into. -/
def zeros : FVec Ideal S40000x128 .f32 :=
  broadcastInDim S40000x128 ![] bcast_S_S40000x128 (constant (F := Ideal) S_ .f32 0x00000000#32)

/-- The node rows the edges read: row e is the node row at the wrapped index of edge e. -/
def gathered (node : FVec Ideal S40000x128 .f32) (frm : IVec S640000 32) :
    FVec Ideal S640000x128 .f32 :=
  Host.gather gather_S40000x128_S640000x1_S640000x128_1_0_n_n_0_1_1128 node (wrapCol frm)

/-- The kernel's aggregated messages: the gathered node rows summed at their target nodes, minus the edge rows
    summed at the same nodes. -/
def messages (node : FVec Ideal S40000x128 .f32) (edge : FVec Ideal S640000x128 .f32)
    (frm tgt : IVec S640000 32) : FVec Ideal S40000x128 .f32 :=
  subf (Host.scatterAdd scatter_S40000x128_S640000x1_S640000x128_1_0_0_1 zeros (col tgt) (gathered node frm))
    (Host.scatterAdd scatter_S40000x128_S640000x1_S640000x128_1_0_0_1 zeros (col tgt) edge)

/-- A weight matrix as a region reads it: transposed (the narrowing is the identity). -/
def weightT (W : FVec Ideal S128x128 .f32) : FVec Ideal S128x128 .bf16 :=
  truncf .bf16 (transpose S128x128 [1, 0] W transposes_S128x128_S128x128_1_0) bitsLt_bf16_f32

/-- Two bias vectors added, as a row. -/
def biasRow (b1 b2 : FVec Ideal S128 .f32) : FVec Ideal S1x128 .f32 :=
  shapeCast S1x128 (addf b1 b2) shapeCasts_S128_S1x128

/-- A bias vector as a row. -/
def rowOf (b : FVec Ideal S128 .f32) : FVec Ideal S1x128 .f32 :=
  shapeCast S1x128 b shapeCasts_S128_S1x128

variable (m : (ℓ : Loc nD τ sig) → Buf (Elt Ideal) ℓ) (ρ : Dev nD → PrngReg)

/-- The first region finds the out-messages: node rows of the sources summed at the destinations. -/
theorem entry_out (c : Dev nD) :
    V1 m ρ c main_v13 = messages (m ((c.tc : Thread nD τ).loc main_arg0)) (m ((c.tc : Thread nD τ).loc main_arg1)) (m ((c.tc : Thread nD τ).loc main_arg2)) (m ((c.tc : Thread nD τ).loc main_arg3)) := by
  show StableHlo.after hostOps0 (W0 m ρ c) (Proc.devRef .tc main_v13) = _
  after_results_simp <;> rfl

/-- The first region finds the in-messages: node rows of the destinations summed at the sources. -/
theorem entry_in (c : Dev nD) :
    V1 m ρ c main_v27 = messages (m ((c.tc : Thread nD τ).loc main_arg0)) (m ((c.tc : Thread nD τ).loc main_arg1)) (m ((c.tc : Thread nD τ).loc main_arg3)) (m ((c.tc : Thread nD τ).loc main_arg2)) := by
  show StableHlo.after hostOps0 (W0 m ρ c) (Proc.devRef .tc main_v27) = _
  after_results_simp <;> rfl

theorem entry_wo (c : Dev nD) : V1 m ρ c main_v29 = weightT (m ((c.tc : Thread nD τ).loc main_arg4)) := by
  show StableHlo.after hostOps0 (W0 m ρ c) (Proc.devRef .tc main_v29) = _
  after_results_simp <;> rfl

theorem entry_wi (c : Dev nD) : V1 m ρ c main_v31 = weightT (m ((c.tc : Thread nD τ).loc main_arg6)) := by
  show StableHlo.after hostOps0 (W0 m ρ c) (Proc.devRef .tc main_v31) = _
  after_results_simp <;> rfl

/-- The first region finds the two biases added, as a row. -/
theorem entry_bias (c : Dev nD) :
    V1 m ρ c main_v33 = biasRow (m ((c.tc : Thread nD τ).loc main_arg5)) (m ((c.tc : Thread nD τ).loc main_arg7)) := by
  show StableHlo.after hostOps0 (W0 m ρ c) (Proc.devRef .tc main_v33) = _
  after_results_simp <;> rfl

/-- After the first region an argument array is as launched. -/
theorem W2_arg1 (c : Dev nD) : W2 m ρ c (Proc.devRef .tc main_arg1) = (m ((c.tc : Thread nD τ).loc main_arg1)) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (m ((c.tc : Thread nD τ).loc main_arg1)) := rfl
theorem W2_arg8 (c : Dev nD) : W2 m ρ c (Proc.devRef .tc main_arg8) = (m ((c.tc : Thread nD τ).loc main_arg8)) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (m ((c.tc : Thread nD τ).loc main_arg8)) := rfl
theorem W2_arg9 (c : Dev nD) : W2 m ρ c (Proc.devRef .tc main_arg9) = (m ((c.tc : Thread nD τ).loc main_arg9)) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (m ((c.tc : Thread nD τ).loc main_arg9)) := rfl

/-- The second region finds the edge embeddings as launched. -/
theorem entry_edge (c : Dev nD) : V3 m ρ c main_arg1 = (m ((c.tc : Thread nD τ).loc main_arg1)) :=
  calc V3 m ρ c main_arg1
    _ = W2 m ρ c (Proc.devRef .tc main_arg1) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (m ((c.tc : Thread nD τ).loc main_arg1)) := W2_arg1 m ρ c

/-- The second region finds the third weight matrix transposed. -/
theorem entry_wrel (c : Dev nD) : V3 m ρ c main_v36 = weightT (m ((c.tc : Thread nD τ).loc main_arg8)) := by
  show StableHlo.after hostOps1 (W2 m ρ c) (Proc.devRef .tc main_v36) = _
  rw [← W2_arg8 m ρ c]
  after_results_simp <;> rfl

/-- The second region finds the third bias as a row. -/
theorem entry_brel (c : Dev nD) : V3 m ρ c main_v37 = rowOf (m ((c.tc : Thread nD τ).loc main_arg9)) := by
  show StableHlo.after hostOps1 (W2 m ρ c) (Proc.devRef .tc main_v37) = _
  rw [← W2_arg9 m ρ c]
  after_results_simp <;> rfl

/-- The node output array is, at the end, what the first region left in it. -/
theorem end_node (c : Dev nD) : W4 m ρ c (Proc.devRef .tc main_v34) = (dat0 (V1 m ρ) c).arrAt 5 cfg0.N :=
  calc W4 m ρ c (Proc.devRef .tc main_v34)
    _ = W3 m ρ c (Proc.devRef .tc main_v34) := W4_of_ne m ρ c main_v34 (by decide)
    _ = W2 m ρ c (Proc.devRef .tc main_v34) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 5 cfg0.N := W2_arr m ρ c 5

/-- The edge output array is, at the end, what the second region left in it. -/
theorem end_edge (c : Dev nD) : W4 m ρ c (Proc.devRef .tc main_v38) = (dat1 (V3 m ρ) c).arrAt 3 cfg1.N :=
  W4_arr m ρ c 3

end Cert.KernelIdeal.HostSide

end
-- ==== Proof.LibRowDot.lean ====
/-
  A rows-by-columns product read at an index.

  For the plain dimension numbers of an [M, K] by [K, N] product (the left operand contracted on its axis 1, the
  right on its axis 0, no batch axis) the sum over the contraction index of the operands' products at output
  element (p, q) is the sum over k < K of left (p, k) times right (k, q).  Both a matmul into a zero
  accumulator and the host's dot_general are that sum on the extended reals.
-/
import Idealize.ShloMosaic.PureOps.Ideal.Laws
import Idealize.ShloMosaic.Lib.ValueIdx

noncomputable section

namespace Idealize.ShloMosaic.RowDot

open Idealize.ShloMosaic Idealize.ShloMosaic.ValueIdx

variable {M K N : Nat}

/-- The contraction's sum of a plain product at output element j, re-indexed by the contracted coordinate. -/
theorem plain_sum (l : (⟨2, ![M, K]⟩ : Shape).Idx → EReal) (r : (⟨2, ![K, N]⟩ : Shape).Idx → EReal)
    (j : (⟨2, ![M, N]⟩ : Shape).Idx) :
    ∑ k : (DotDims.plain M K N).contr.Idx,
        l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => rfl)
  exact congr (congrArg (fun a b : EReal => a * b) (congrArg l el)) (congrArg r er)

/-- A matmul into the zero accumulator, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, (l (ix2 p k) : EReal) * (r (ix2 k q) : EReal) := by
  rw [Ideal.matmul_constant_zero_apply]
  exact plain_sum (M := M) (K := K) (N := N) l r (ix2 p q)

/-- The host's dot_general, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q)
      = ∑ k : Fin K, (l (ix2 p k) : EReal) * (r (ix2 k q) : EReal) := by
  rw [Ideal.dotGeneral_apply]
  exact plain_sum (M := M) (K := K) (N := N) l r (ix2 p q)

end Idealize.ShloMosaic.RowDot

end
-- ==== Proof.NodeBlock.lean ====
/-
  The node projection, one block of rows at a time.

  A grid point of the first region loads 4000 rows of each aggregated message array, the two transposed
  weight matrices and the summed bias row, and stores, at row p and column q of its block,
      (sum over k of out-message (p, k) * W_O^T (k, q)  +  sum over k of in-message (p, k) * W_I^T (k, q))  +  bias (0, q).
  The narrowing to bf16 is the identity on the extended reals and a matmul into the zero accumulator is the plain sum.
-/
import proofs.«138060_j48103633715705_2_alg».proof.Proof.Gen.KernelIdeal.Skeleton
import proofs.«138060_j48103633715705_2_alg».proof.Proof.LibRowDot
import Idealize.ShloMosaic.Lib.Pipeline.Value
import Idealize.ShloMosaic.Lib.ValueIdx

noncomputable section

namespace Cert.KernelIdeal.NodeProj

open Cert.KernelIdeal Cert.KernelIdeal.Gen Idealize.ShloMosaic Idealize.ShloMosaic.ValueIdx

/-- The bias row spread over the block's rows: every row reads the one row there is. -/
theorem bias_rows (b : Vec Ideal S1x128 .f32) (p : Fin 4000) (q : Fin 128) :
    broadcastTo S4000x128 b broadcasts_S1x128_S4000x128 (ix2 p q) = b (ix2 ⟨0, Nat.one_pos⟩ q) :=
  broadcastTo_apply b broadcasts_S1x128_S4000x128 (ix2 p q) (ix2 ⟨0, Nat.one_pos⟩ q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- What a grid point stores, read at row p and column q of its block. -/
theorem payload_apply (x0 x1 : Vec Ideal S4000x128 .f32) (w0 w1 : Vec Ideal S128x128 .bf16) (b : Vec Ideal S1x128 .f32)
    (p : Fin 4000) (q : Fin 128) :
    k0_pay1 (F := Ideal) x0 x1 w0 w1 b (ix2 p q)
      = ((∑ k : Fin 128, (x0 (ix2 p k) : EReal) * (w0 (ix2 k q) : EReal))
          + ∑ k : Fin 128, (x1 (ix2 p k) : EReal) * (w1 (ix2 k q) : EReal))
        + (b (ix2 ⟨0, Nat.one_pos⟩ q) : EReal) := by
  unfold k0_pay1
  simp only [shapeCast_self]
  have e0 := RowDot.matmul_zero_apply (M := 4000) (K := 128) (N := 128) (φ₁ := .bf16) (φ₂ := .bf16) none
    (truncf .bf16 x0 bitsLt_bf16_f32) w0 p q
  have e1 := RowDot.matmul_zero_apply (M := 4000) (K := 128) (N := 128) (φ₁ := .bf16) (φ₂ := .bf16) none
    (truncf .bf16 x1 bitsLt_bf16_f32) w1 p q
  have e2 := bias_rows b p q
  exact congr (congrArg (fun a c : EReal => a + c) (congr (congrArg (fun a c : EReal => a + c) e0) e1)) e2

end Cert.KernelIdeal.NodeProj

end
-- ==== Proof.Spec.lean ====
/-
  What the two programs compute, element by element, on the extended reals.

  With ho and hi the two aggregated message arrays ([40000, 128]), the node output at (r, q) is
      (sum over k of ho (r, k) * W_O (q, k)  +  sum over k of hi (r, k) * W_I (q, k))  +  (b_O q + b_I q),
  and with e the edge embeddings ([640000, 128]) the edge output at (r, q) is
      sum over k of e (r, k) * W_rel (q, k)  +  b_rel q.
  The reference adds the four terms of the node output in another order; addition on the extended reals is
  commutative and associative, so the two groupings agree with no finiteness needed.
-/
import Idealize.ShloMosaic.PureOps.Ideal
import Idealize.ShloMosaic.Lib.ValueIdx

noncomputable section

namespace Cert.Spec

open Idealize.ShloMosaic Idealize.ShloMosaic.ValueIdx

/-- The node output at row r and column q, from the aggregated messages, the two weight matrices (as given:
    output feature by input feature) and the two bias vectors. -/
def nodeOutAt (ho hi : (⟨2, ![40000, 128]⟩ : Shape).Idx → EReal) (WO WI : (⟨2, ![128, 128]⟩ : Shape).Idx → EReal)
    (bO bI : (⟨1, ![128]⟩ : Shape).Idx → EReal) (r : Fin 40000) (q : Fin 128) : EReal :=
  ((∑ k : Fin 128, ho (ix2 r k) * WO (ix2 q k)) + ∑ k : Fin 128, hi (ix2 r k) * WI (ix2 q k))
    + (bO (ix1 q) + bI (ix1 q))

/-- The node output as an array. -/
def nodeOut (ho hi : (⟨2, ![40000, 128]⟩ : Shape).Idx → EReal) (WO WI : (⟨2, ![128, 128]⟩ : Shape).Idx → EReal)
    (bO bI : (⟨1, ![128]⟩ : Shape).Idx → EReal) : (⟨2, ![40000, 128]⟩ : Shape).Idx → EReal :=
  fun i => nodeOutAt ho hi WO WI bO bI (i 0) (i 1)

/-- The edge output at row r and column q. -/
def edgeOutAt (e : (⟨2, ![640000, 128]⟩ : Shape).Idx → EReal) (W : (⟨2, ![128, 128]⟩ : Shape).Idx → EReal)
    (b : (⟨1, ![128]⟩ : Shape).Idx → EReal) (r : Fin 640000) (q : Fin 128) : EReal :=
  (∑ k : Fin 128, e (ix2 r k) * W (ix2 q k)) + b (ix1 q)

/-- The edge output as an array. -/
def edgeOut (e : (⟨2, ![640000, 128]⟩ : Shape).Idx → EReal) (W : (⟨2, ![128, 128]⟩ : Shape).Idx → EReal)
    (b : (⟨1, ![128]⟩ : Shape).Idx → EReal) : (⟨2, ![640000, 128]⟩ : Shape).Idx → EReal :=
  fun i => edgeOutAt e W b (i 0) (i 1)

/-- The node output at (r, q) as the first region computes it: from the aggregated messages, the two weight
    matrices already transposed (input feature by output feature) and the two biases already added into one row. -/
def nodeBlockAt (ho hi : (⟨2, ![40000, 128]⟩ : Shape).Idx → EReal) (wo wi : (⟨2, ![128, 128]⟩ : Shape).Idx → EReal)
    (b : (⟨2, ![1, 128]⟩ : Shape).Idx → EReal) (r : Fin 40000) (q : Fin 128) : EReal :=
  ((∑ k : Fin 128, ho (ix2 r k) * wo (ix2 k q)) + ∑ k : Fin 128, hi (ix2 r k) * wi (ix2 k q))
    + b (ix2 ⟨0, Nat.one_pos⟩ q)

/-- The same as an array. -/
def nodeBlock (ho hi : (⟨2, ![40000, 128]⟩ : Shape).Idx → EReal) (wo wi : (⟨2, ![128, 128]⟩ : Shape).Idx → EReal)
    (b : (⟨2, ![1, 128]⟩ : Shape).Idx → EReal) : (⟨2, ![40000, 128]⟩ : Shape).Idx → EReal :=
  fun i => nodeBlockAt ho hi wo wi b (i 0) (i 1)

/-- The edge output at (r, q) as the second region computes it: from the edge embeddings, the transposed weight
    matrix and the bias as a row. -/
def edgeBlockAt (e : (⟨2, ![640000, 128]⟩ : Shape).Idx → EReal) (w : (⟨2, ![128, 128]⟩ : Shape).Idx → EReal)
    (b : (⟨2, ![1, 128]⟩ : Shape).Idx → EReal) (r : Fin 640000) (q : Fin 128) : EReal :=
  (∑ k : Fin 128, e (ix2 r k) * w (ix2 k q)) + b (ix2 ⟨0, Nat.one_pos⟩ q)

/-- The same as an array. -/
def edgeBlock (e : (⟨2, ![640000, 128]⟩ : Shape).Idx → EReal) (w : (⟨2, ![128, 128]⟩ : Shape).Idx → EReal)
    (b : (⟨2, ![1, 128]⟩ : Shape).Idx → EReal) : (⟨2, ![640000, 128]⟩ : Shape).Idx → EReal :=
  fun i => edgeBlockAt e w b (i 0) (i 1)

/-- The reference's grouping of the node output's four terms is the kernel's. -/
theorem regroup (a b x y : EReal) : ((a + x) + b) + y = (a + b) + (x + y) := by
  rw [add_right_comm a x b, add_assoc]

end Cert.Spec

end
-- ==== Proof.NodeArray.lean ====
/-
  The node output array after the first region.

  The region's ten grid points each write back one block of 4000 rows; block t holds rows 4000 t .. 4000 t + 3999,
  the blocks tile the array, and each is the block of ONE whole-array function of the arrays the region reads:
  the aggregated messages (read through the same rows), the transposed weights and the bias row (read whole).
  So the array ends holding that function.
-/
import proofs.«138060_j48103633715705_2_alg».proof.Proof.Gen.KernelIdeal.Frame
import proofs.«138060_j48103633715705_2_alg».proof.Proof.NodeBlock
import proofs.«138060_j48103633715705_2_alg».proof.Proof.Spec
import Idealize.ShloMosaic.Lib.Pipeline.Value

noncomputable section

namespace Cert.KernelIdeal.NodeProj

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row windows move with the point, the weights and the
    bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The whole-array function the region's output blocks are blocks of. -/
def result (c : Dev nD) : S40000x128.Idx → EReal :=
  Cert.Spec.nodeBlock (V c main_v13) (V c main_v27) (V c main_v29) (V c main_v31) (V c main_v33)

/-- Row p of the out-message window's block at point t is row 4000 t + p of its array. -/
theorem out_rows (c : Dev nD) (t : Fin cfg0.N) (p : Fin 4000) (k : Fin 128) (r : Fin 40000)
    (hr : r.val = 4000 * t.val + p.val) :
    (iblk0 V c 0 t : Vec Ideal S4000x128 .f32) (ix2 p k) = (V c main_v13 : S40000x128.Idx → EReal) (ix2 r k) := by
  obtain ⟨e0, e1, -⟩ := idx_facts t
  unfold iblk0
  rw [View.read_apply]
  show V c main_v13 _ = V c main_v13 _
  refine congrArg _ (funext fun a => Fin.ext ?_)
  match a with
  | ⟨0, _⟩ => show win0_0.index t 0 * 4000 + 1 * p.val = r.val; rw [e0, hr]; omega
  | ⟨1, _⟩ => show win0_0.index t 1 * 128 + 1 * k.val = k.val; rw [e1]; omega

/-- Row p of the in-message window's block at point t is row 4000 t + p of its array. -/
theorem in_rows (c : Dev nD) (t : Fin cfg0.N) (p : Fin 4000) (k : Fin 128) (r : Fin 40000)
    (hr : r.val = 4000 * t.val + p.val) :
    (iblk0 V c 1 t : Vec Ideal S4000x128 .f32) (ix2 p k) = (V c main_v27 : S40000x128.Idx → EReal) (ix2 r k) := by
  obtain ⟨-, -, e0, e1, -⟩ := idx_facts t
  unfold iblk0
  rw [View.read_apply]
  show V c main_v27 _ = V c main_v27 _
  refine congrArg _ (funext fun a => Fin.ext ?_)
  match a with
  | ⟨0, _⟩ => show win0_1.index t 0 * 4000 + 1 * p.val = r.val; rw [e0, hr]; omega
  | ⟨1, _⟩ => show win0_1.index t 1 * 128 + 1 * k.val = k.val; rw [e1]; omega

/-- The first weight window's one block is its whole array. -/
theorem wo_whole (c : Dev nD) (t : Fin cfg0.N) (k q : Fin 128) :
    (iblk0 V c 2 t : Vec Ideal S128x128 .bf16) (ix2 k q) = (V c main_v29 : S128x128.Idx → EReal) (ix2 k q) := by
  obtain ⟨-, -, -, -, e0, e1, -⟩ := idx_facts t
  unfold iblk0
  rw [View.read_apply]
  show V c main_v29 _ = V c main_v29 _
  refine congrArg _ (funext fun a => Fin.ext ?_)
  match a with
  | ⟨0, _⟩ => show win0_2.index t 0 * 128 + 1 * k.val = k.val; rw [e0]; omega
  | ⟨1, _⟩ => show win0_2.index t 1 * 128 + 1 * q.val = q.val; rw [e1]; omega

/-- The second weight window's one block is its whole array. -/
theorem wi_whole (c : Dev nD) (t : Fin cfg0.N) (k q : Fin 128) :
    (iblk0 V c 3 t : Vec Ideal S128x128 .bf16) (ix2 k q) = (V c main_v31 : S128x128.Idx → EReal) (ix2 k q) := by
  obtain ⟨-, -, -, -, -, -, e0, e1, -⟩ := idx_facts t
  unfold iblk0
  rw [View.read_apply]
  show V c main_v31 _ = V c main_v31 _
  refine congrArg _ (funext fun a => Fin.ext ?_)
  match a with
  | ⟨0, _⟩ => show win0_3.index t 0 * 128 + 1 * k.val = k.val; rw [e0]; omega
  | ⟨1, _⟩ => show win0_3.index t 1 * 128 + 1 * q.val = q.val; rw [e1]; omega

/-- The bias window's one block is its whole array. -/
theorem bias_whole (c : Dev nD) (t : Fin cfg0.N) (z : Fin 1) (q : Fin 128) :
    (iblk0 V c 4 t : Vec Ideal S1x128 .f32) (ix2 z q) = (V c main_v33 : S1x128.Idx → EReal) (ix2 z q) := by
  obtain ⟨-, -, -, -, -, -, -, -, e0, e1, -⟩ := idx_facts t
  unfold iblk0
  rw [View.read_apply]
  show V c main_v33 _ = V c main_v33 _
  refine congrArg _ (funext fun a => Fin.ext ?_)
  match a with
  | ⟨0, _⟩ => show win0_4.index t 0 * 1 + 1 * z.val = z.val; rw [e0]; omega
  | ⟨1, _⟩ => show win0_4.index t 1 * 128 + 1 * q.val = q.val; rw [e1]; omega

/-- Element (p, q) of the output window's block at point t is element (4000 t + p, q) of its array. -/
theorem out_emb (t : Fin cfg0.N) (p : Fin 4000) (q : Fin 128) (r : Fin 40000) (hr : r.val = 4000 * t.val + p.val) :
    ((cfg0.win 5).blk t).view.emb (ix2 p q : S4000x128.Idx) = (ix2 r q : S40000x128.Idx) := by
  obtain ⟨-, -, -, -, -, -, -, -, -, -, e0, e1⟩ := idx_facts t
  refine funext fun a => Fin.ext ?_
  match a with
  | ⟨0, _⟩ => show win0_5.index t 0 * 4000 + 1 * p.val = r.val; rw [e0, hr]; omega
  | ⟨1, _⟩ => show win0_5.index t 1 * 128 + 1 * q.val = q.val; rw [e1]; omega

/-- WHAT POINT t WRITES BACK is block t of the result. -/
theorem flushed_eq (c : Dev nD) (t : Fin cfg0.N) :
    (dat0 (F := Ideal) V c).flushed 5 t = ((cfg0.win 5).blk t).view.read (Elt Ideal) (result V c) := by
  show (cfg0.win 5).cut (grid0.coords t) ((dat0 (F := Ideal) V c).after 5 t) = _
  rw [after0_5]
  unfold out0_5
  rw [View.canon_unit_zero hz]
  simp only [View.ld_unit_zero (S := S4000x128) hz, View.ld_unit_zero (S := S128x128) hz, View.ld_unit_zero (S := S1x128) hz]
  refine funext fun (j : S4000x128.Idx) => ?_
  obtain ⟨p, q, rfl⟩ : ∃ (p : Fin 4000) (q : Fin 128), j = ix2 p q := ⟨j 0, j 1, eq_ix2 j⟩
  have hN : cfg0.N = 10 := N_0
  have ht : t.val < 10 := hN ▸ t.isLt
  have hr : 4000 * t.val + p.val < 40000 := by have := p.isLt; omega
  rw [View.read_apply, out_emb t p q ⟨4000 * t.val + p.val, hr⟩ rfl]
  refine (payload_apply _ _ _ _ _ p q).trans ?_
  show _ = Cert.Spec.nodeBlockAt _ _ _ _ _ ⟨4000 * t.val + p.val, hr⟩ q
  unfold Cert.Spec.nodeBlockAt
  refine congr (congrArg (fun a b : EReal => a + b) (congr (congrArg (fun a b : EReal => a + b) ?_) ?_)) ?_
  · exact Finset.sum_congr rfl fun k _ =>
      congr (congrArg (fun a b : EReal => a * b) (out_rows V c t p k ⟨4000 * t.val + p.val, hr⟩ rfl)) (wo_whole V c t k q)
  · exact Finset.sum_congr rfl fun k _ =>
      congr (congrArg (fun a b : EReal => a * b) (in_rows V c t p k ⟨4000 * t.val + p.val, hr⟩ rfl)) (wi_whole V c t k q)
  · exact bias_whole V c t ⟨0, Nat.one_pos⟩ q

/-- An index of the array is in point t's block iff each coordinate is in the block's range on its axis. -/
theorem mem_blk (t : Fin cfg0.N) (i : S40000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v34).slice (win0_5.rect t)).set ↔ _
  rw [View.set_slice_whole, Rect.mem_set_unit]
  exact Iff.rfl

/-- Every row is in some point's block: row r in the block of point r / 4000. -/
theorem cover (i : S40000x128.Idx) :
    ∃ t : Fin cfg0.N, (cfg0.win 5).flush t = true ∧ i ∈ ((cfg0.win 5).blk t).view.set := by
  have hi0 : (i 0).val < 40000 := (i 0).isLt
  have hi1 : (i 1).val < 128 := (i 1).isLt
  have hN : cfg0.N = 10 := N_0
  have ht : (i 0).val / 4000 < cfg0.N := by rw [hN]; omega
  obtain ⟨-, -, -, -, -, -, -, -, -, -, e0, e1⟩ := idx_facts ⟨(i 0).val / 4000, ht⟩
  refine ⟨⟨(i 0).val / 4000, ht⟩, flush0_5 _, ?_⟩
  rw [mem_blk]
  intro a
  match a with
  | ⟨0, _⟩ =>
    show win0_5.index ⟨(i 0).val / 4000, ht⟩ 0 * 4000 ≤ (i 0).val
      ∧ (i 0).val < win0_5.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win0_5.index ⟨(i 0).val / 4000, ht⟩ 1 * 128 ≤ (i 1).val
      ∧ (i 1).val < win0_5.index ⟨(i 0).val / 4000, ht⟩ 1 * 128 + 128
    rw [e1]; omega

/-- THE NODE OUTPUT ARRAY after the region is the result. -/
theorem final (c : Dev nD) : (dat0 (F := Ideal) V c).arrAt 5 cfg0.N = result V c :=
  (dat0 (F := Ideal) V c).arrAt_eq_of_cover 5 (result V c) (fun t _ => flushed_eq V c t) cover

end Cert.KernelIdeal.NodeProj

end
-- ==== Proof.EdgeBlock.lean ====
/-
  The edge projection, one block of rows at a time.

  A grid point of the second region loads 8000 rows of the edge embeddings, the transposed weight matrix and the
  bias row, and stores, at row p and column q of its block,
      sum over k of edge (p, k) * W_rel^T (k, q)  +  bias (0, q).
-/
import proofs.«138060_j48103633715705_2_alg».proof.Proof.Gen.KernelIdeal.Skeleton
import proofs.«138060_j48103633715705_2_alg».proof.Proof.LibRowDot
import Idealize.ShloMosaic.Lib.Pipeline.Value
import Idealize.ShloMosaic.Lib.ValueIdx

noncomputable section

namespace Cert.KernelIdeal.EdgeProj

open Cert.KernelIdeal Cert.KernelIdeal.Gen Idealize.ShloMosaic Idealize.ShloMosaic.ValueIdx

/-- The bias row spread over the block's rows: every row reads the one row there is. -/
theorem bias_rows (b : Vec Ideal S1x128 .f32) (p : Fin 8000) (q : Fin 128) :
    broadcastTo S8000x128 b broadcasts_S1x128_S8000x128 (ix2 p q) = b (ix2 ⟨0, Nat.one_pos⟩ q) :=
  broadcastTo_apply b broadcasts_S1x128_S8000x128 (ix2 p q) (ix2 ⟨0, Nat.one_pos⟩ q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- What a grid point stores, read at row p and column q of its block. -/
theorem payload_apply (x : Vec Ideal S8000x128 .f32) (w : Vec Ideal S128x128 .bf16) (b : Vec Ideal S1x128 .f32)
    (p : Fin 8000) (q : Fin 128) :
    k1_pay1 (F := Ideal) x w b (ix2 p q)
      = (∑ k : Fin 128, (x (ix2 p k) : EReal) * (w (ix2 k q) : EReal)) + (b (ix2 ⟨0, Nat.one_pos⟩ q) : EReal) := by
  unfold k1_pay1
  simp only [shapeCast_self]
  have e0 := RowDot.matmul_zero_apply (M := 8000) (K := 128) (N := 128) (φ₁ := .bf16) (φ₂ := .bf16) none
    (truncf .bf16 x bitsLt_bf16_f32) w p q
  have e2 := bias_rows b p q
  exact congr (congrArg (fun a c : EReal => a + c) e0) e2

end Cert.KernelIdeal.EdgeProj

end
-- ==== Proof.EdgeArray.lean ====
/-
  The edge output array after the second region.

  The region's eighty grid points each write back one block of 8000 rows; block t holds rows 8000 t .. 8000 t + 7999,
  the blocks tile the array, and each is the block of ONE whole-array function of the arrays the region reads:
  the edge embeddings (read through the same rows), the transposed weight and the bias row (read whole).
-/
import proofs.«138060_j48103633715705_2_alg».proof.Proof.Gen.KernelIdeal.Frame
import proofs.«138060_j48103633715705_2_alg».proof.Proof.EdgeBlock
import proofs.«138060_j48103633715705_2_alg».proof.Proof.Spec
import Idealize.ShloMosaic.Lib.Pipeline.Value

noncomputable section

namespace Cert.KernelIdeal.EdgeProj

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row windows move with the point, the weight and the
    bias stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The whole-array function the region's output blocks are blocks of. -/
def result (c : Dev nD) : S640000x128.Idx → EReal :=
  Cert.Spec.edgeBlock (V c main_arg1) (V c main_v36) (V c main_v37)

/-- Row p of the edge window's block at point t is row 8000 t + p of its array. -/
theorem edge_rows (c : Dev nD) (t : Fin cfg1.N) (p : Fin 8000) (k : Fin 128) (r : Fin 640000)
    (hr : r.val = 8000 * t.val + p.val) :
    (iblk1 V c 0 t : Vec Ideal S8000x128 .f32) (ix2 p k) = (V c main_arg1 : S640000x128.Idx → EReal) (ix2 r k) := by
  obtain ⟨e0, e1, -⟩ := idx_facts t
  unfold iblk1
  rw [View.read_apply]
  show V c main_arg1 _ = V c main_arg1 _
  refine congrArg _ (funext fun a => Fin.ext ?_)
  match a with
  | ⟨0, _⟩ => show win1_0.index t 0 * 8000 + 1 * p.val = r.val; rw [e0, hr]; omega
  | ⟨1, _⟩ => show win1_0.index t 1 * 128 + 1 * k.val = k.val; rw [e1]; omega

/-- The weight window's one block is its whole array. -/
theorem w_whole (c : Dev nD) (t : Fin cfg1.N) (k q : Fin 128) :
    (iblk1 V c 1 t : Vec Ideal S128x128 .bf16) (ix2 k q) = (V c main_v36 : S128x128.Idx → EReal) (ix2 k q) := by
  obtain ⟨-, -, e0, e1, -⟩ := idx_facts t
  unfold iblk1
  rw [View.read_apply]
  show V c main_v36 _ = V c main_v36 _
  refine congrArg _ (funext fun a => Fin.ext ?_)
  match a with
  | ⟨0, _⟩ => show win1_1.index t 0 * 128 + 1 * k.val = k.val; rw [e0]; omega
  | ⟨1, _⟩ => show win1_1.index t 1 * 128 + 1 * q.val = q.val; rw [e1]; omega

/-- The bias window's one block is its whole array. -/
theorem bias_whole (c : Dev nD) (t : Fin cfg1.N) (z : Fin 1) (q : Fin 128) :
    (iblk1 V c 2 t : Vec Ideal S1x128 .f32) (ix2 z q) = (V c main_v37 : S1x128.Idx → EReal) (ix2 z q) := by
  obtain ⟨-, -, -, -, e0, e1, -⟩ := idx_facts t
  unfold iblk1
  rw [View.read_apply]
  show V c main_v37 _ = V c main_v37 _
  refine congrArg _ (funext fun a => Fin.ext ?_)
  match a with
  | ⟨0, _⟩ => show win1_2.index t 0 * 1 + 1 * z.val = z.val; rw [e0]; omega
  | ⟨1, _⟩ => show win1_2.index t 1 * 128 + 1 * q.val = q.val; rw [e1]; omega

/-- Element (p, q) of the output window's block at point t is element (8000 t + p, q) of its array. -/
theorem out_emb (t : Fin cfg1.N) (p : Fin 8000) (q : Fin 128) (r : Fin 640000) (hr : r.val = 8000 * t.val + p.val) :
    ((cfg1.win 3).blk t).view.emb (ix2 p q : S8000x128.Idx) = (ix2 r q : S640000x128.Idx) := by
  obtain ⟨-, -, -, -, -, -, e0, e1⟩ := idx_facts t
  refine funext fun a => Fin.ext ?_
  match a with
  | ⟨0, _⟩ => show win1_3.index t 0 * 8000 + 1 * p.val = r.val; rw [e0, hr]; omega
  | ⟨1, _⟩ => show win1_3.index t 1 * 128 + 1 * q.val = q.val; rw [e1]; omega

/-- WHAT POINT t WRITES BACK is block t of the result. -/
theorem flushed_eq (c : Dev nD) (t : Fin cfg1.N) :
    (dat1 (F := Ideal) V c).flushed 3 t = ((cfg1.win 3).blk t).view.read (Elt Ideal) (result V c) := by
  show (cfg1.win 3).cut (grid1.coords t) ((dat1 (F := Ideal) V c).after 3 t) = _
  rw [after1_3]
  unfold out1_3
  rw [View.canon_unit_zero hz]
  simp only [View.ld_unit_zero (S := S8000x128) hz, View.ld_unit_zero (S := S128x128) hz, View.ld_unit_zero (S := S1x128) hz]
  refine funext fun (j : S8000x128.Idx) => ?_
  obtain ⟨p, q, rfl⟩ : ∃ (p : Fin 8000) (q : Fin 128), j = ix2 p q := ⟨j 0, j 1, eq_ix2 j⟩
  have hN : cfg1.N = 80 := N_1
  have ht : t.val < 80 := hN ▸ t.isLt
  have hr : 8000 * t.val + p.val < 640000 := by have := p.isLt; omega
  rw [View.read_apply, out_emb t p q ⟨8000 * t.val + p.val, hr⟩ rfl]
  refine (payload_apply _ _ _ p q).trans ?_
  show _ = Cert.Spec.edgeBlockAt _ _ _ ⟨8000 * t.val + p.val, hr⟩ q
  unfold Cert.Spec.edgeBlockAt
  refine congr (congrArg (fun a b : EReal => a + b) ?_) ?_
  · exact Finset.sum_congr rfl fun k _ =>
      congr (congrArg (fun a b : EReal => a * b) (edge_rows V c t p k ⟨8000 * t.val + p.val, hr⟩ rfl)) (w_whole V c t k q)
  · exact bias_whole V c t ⟨0, Nat.one_pos⟩ q

/-- An index of the array is in point t's block iff each coordinate is in the block's range on its axis. -/
theorem mem_blk (t : Fin cfg1.N) (i : S640000x128.Idx) :
    i ∈ ((cfg1.win 3).blk t).view.set ↔ ∀ a : Fin 2, win1_3.index t a * S8000x128.size a ≤ (i a).val
      ∧ (i a).val < win1_3.index t a * S8000x128.size a + S8000x128.size a := by
  show i ∈ ((View.whole main_v38).slice (win1_3.rect t)).set ↔ _
  rw [View.set_slice_whole, Rect.mem_set_unit]
  exact Iff.rfl

/-- Every row is in some point's block: row r in the block of point r / 8000. -/
theorem cover (i : S640000x128.Idx) :
    ∃ t : Fin cfg1.N, (cfg1.win 3).flush t = true ∧ i ∈ ((cfg1.win 3).blk t).view.set := by
  have hi0 : (i 0).val < 640000 := (i 0).isLt
  have hi1 : (i 1).val < 128 := (i 1).isLt
  have hN : cfg1.N = 80 := N_1
  have ht : (i 0).val / 8000 < cfg1.N := by rw [hN]; omega
  obtain ⟨-, -, -, -, -, -, e0, e1⟩ := idx_facts ⟨(i 0).val / 8000, ht⟩
  refine ⟨⟨(i 0).val / 8000, ht⟩, flush1_3 _, ?_⟩
  rw [mem_blk]
  intro a
  match a with
  | ⟨0, _⟩ =>
    show win1_3.index ⟨(i 0).val / 8000, ht⟩ 0 * 8000 ≤ (i 0).val
      ∧ (i 0).val < win1_3.index ⟨(i 0).val / 8000, ht⟩ 0 * 8000 + 8000
    rw [e0]; show (i 0).val / 8000 * 8000 ≤ (i 0).val ∧ (i 0).val < (i 0).val / 8000 * 8000 + 8000; omega
  | ⟨1, _⟩ =>
    show win1_3.index ⟨(i 0).val / 8000, ht⟩ 1 * 128 ≤ (i 1).val
      ∧ (i 1).val < win1_3.index ⟨(i 0).val / 8000, ht⟩ 1 * 128 + 128
    rw [e1]; omega

/-- THE EDGE OUTPUT ARRAY after the region is the result. -/
theorem final (c : Dev nD) : (dat1 (F := Ideal) V c).arrAt 3 cfg1.N = result V c :=
  (dat1 (F := Ideal) V c).arrAt_eq_of_cover 3 (result V c) (fun t _ => flushed_eq V c t) cover

end Cert.KernelIdeal.EdgeProj

end
-- ==== Proof.KernelFinal.lean ====
/-
  The idealized kernel's two result arrays as the specification's functions of the arguments.

  The first region's array ends at the node output over the kernel's aggregated messages, the second region's at the
  edge output: each region's whole-array result, with the arrays the region finds spelt out (the transposed
  weights read back at swapped coordinates, the bias row at its one row).
-/
import proofs.«138060_j48103633715705_2_alg».proof.Proof.KernelHost
import proofs.«138060_j48103633715705_2_alg».proof.Proof.NodeArray
import proofs.«138060_j48103633715705_2_alg».proof.Proof.EdgeArray
import proofs.«138060_j48103633715705_2_alg».proof.Proof.Spec
import Idealize.ShloMosaic.Lib.Pipeline.Value
import Idealize.ShloMosaic.Lib.ValueIdx

noncomputable section

namespace Cert.KernelIdeal.Final

open Cert.KernelIdeal Cert.KernelIdeal.Gen Cert.KernelIdeal.HostSide
open Idealize.ShloMosaic Idealize.ShloMosaic.TcCoe Idealize.SL.Sem Idealize.ShloMosaic.ValueIdx

/-- A transposed weight matrix at (k, q) is the matrix at (q, k). -/
theorem weightT_apply (W : FVec Ideal S128x128 .f32) (k q : Fin 128) :
    (weightT W (ix2 k q) : EReal) = W (ix2 q k) := by
  unfold weightT
  exact transpose_apply [1, 0] W transposes_S128x128_S128x128_1_0 (ix2 k q) (ix2 q k) (fun b => by
    match b with
    | ⟨0, _⟩ => rfl
    | ⟨1, _⟩ => rfl)

/-- A vector laid out as a row, at (0, q), is the vector at q. -/
theorem row_apply (b : FVec Ideal S128 .f32) (q : Fin 128) :
    (shapeCast S1x128 b shapeCasts_S128_S1x128 (ix2 ⟨0, Nat.one_pos⟩ q) : EReal) = b (ix1 q) := by
  refine (shapeCast_addUnit_apply (n := 1) ![128] b shapeCasts_S128_S1x128 (ix2 ⟨0, Nat.one_pos⟩ q)).trans ?_
  refine congrArg b (funext fun a => Fin.ext ?_)
  match a with
  | ⟨0, _⟩ => rfl

theorem biasRow_apply (b1 b2 : FVec Ideal S128 .f32) (q : Fin 128) :
    (biasRow b1 b2 (ix2 ⟨0, Nat.one_pos⟩ q) : EReal) = b1 (ix1 q) + b2 (ix1 q) := by
  unfold biasRow
  exact row_apply (addf b1 b2) q

theorem rowOf_apply (b : FVec Ideal S128 .f32) (q : Fin 128) :
    (rowOf b (ix2 ⟨0, Nat.one_pos⟩ q) : EReal) = b (ix1 q) := by
  unfold rowOf
  exact row_apply b q

/-- The first region's result over transposed weights and the summed bias row is the specification's node output. -/
theorem node_form (ho hi : FVec Ideal S40000x128 .f32) (W1 W2 : FVec Ideal S128x128 .f32) (b1 b2 : FVec Ideal S128 .f32) :
    Cert.Spec.nodeBlock ho hi (weightT W1) (weightT W2) (biasRow b1 b2) = Cert.Spec.nodeOut ho hi W1 W2 b1 b2 := by
  funext i
  obtain ⟨r, q, rfl⟩ : ∃ (r : Fin 40000) (q : Fin 128), i = ix2 r q := ⟨i 0, i 1, eq_ix2 i⟩
  show Cert.Spec.nodeBlockAt ho hi (weightT W1) (weightT W2) (biasRow b1 b2) r q = Cert.Spec.nodeOutAt ho hi W1 W2 b1 b2 r q
  unfold Cert.Spec.nodeBlockAt Cert.Spec.nodeOutAt
  refine congr (congrArg (fun a b : EReal => a + b) (congr (congrArg (fun a b : EReal => a + b) ?_) ?_)) ?_
  · exact Finset.sum_congr rfl fun k _ => congrArg (fun b : EReal => (ho (ix2 r k) : EReal) * b) (weightT_apply W1 k q)
  · exact Finset.sum_congr rfl fun k _ => congrArg (fun b : EReal => (hi (ix2 r k) : EReal) * b) (weightT_apply W2 k q)
  · exact biasRow_apply b1 b2 q

/-- The second region's result over the transposed weight and the bias row is the specification's edge output. -/
theorem edge_form (e : FVec Ideal S640000x128 .f32) (W : FVec Ideal S128x128 .f32) (b : FVec Ideal S128 .f32) :
    Cert.Spec.edgeBlock e (weightT W) (rowOf b) = Cert.Spec.edgeOut e W b := by
  funext i
  obtain ⟨r, q, rfl⟩ : ∃ (r : Fin 640000) (q : Fin 128), i = ix2 r q := ⟨i 0, i 1, eq_ix2 i⟩
  show Cert.Spec.edgeBlockAt e (weightT W) (rowOf b) r q = Cert.Spec.edgeOutAt e W b r q
  unfold Cert.Spec.edgeBlockAt Cert.Spec.edgeOutAt
  refine congr (congrArg (fun a b : EReal => a + b) ?_) ?_
  · exact Finset.sum_congr rfl fun k _ => congrArg (fun b : EReal => (e (ix2 r k) : EReal) * b) (weightT_apply W k q)
  · exact rowOf_apply b q

variable (m : (ℓ : Loc nD τ sig) → Buf (Elt Ideal) ℓ) (ρ : Dev nD → PrngReg)

/-- THE NODE OUTPUT after the run: the specification's node output over the kernel's aggregated messages. -/
theorem node_final (c : Dev nD) :
    W4 m ρ c (Proc.devRef .tc main_v34)
      = Cert.Spec.nodeOut (messages (m ((c.tc : Thread nD τ).loc main_arg0)) (m ((c.tc : Thread nD τ).loc main_arg1)) (m ((c.tc : Thread nD τ).loc main_arg2)) (m ((c.tc : Thread nD τ).loc main_arg3))) (messages (m ((c.tc : Thread nD τ).loc main_arg0)) (m ((c.tc : Thread nD τ).loc main_arg1)) (m ((c.tc : Thread nD τ).loc main_arg3)) (m ((c.tc : Thread nD τ).loc main_arg2)))
          (m ((c.tc : Thread nD τ).loc main_arg4)) (m ((c.tc : Thread nD τ).loc main_arg6)) (m ((c.tc : Thread nD τ).loc main_arg5)) (m ((c.tc : Thread nD τ).loc main_arg7)) := by
  rw [end_node, NodeProj.final]
  unfold NodeProj.result
  rw [entry_out, entry_in, entry_wo, entry_wi, entry_bias]
  exact node_form _ _ _ _ _ _

/-- THE EDGE OUTPUT after the run: the specification's edge output of the arguments. -/
theorem edge_final (c : Dev nD) :
    W4 m ρ c (Proc.devRef .tc main_v38) = Cert.Spec.edgeOut (m ((c.tc : Thread nD τ).loc main_arg1)) (m ((c.tc : Thread nD τ).loc main_arg8)) (m ((c.tc : Thread nD τ).loc main_arg9)) := by
  rw [end_edge, EdgeProj.final]
  unfold EdgeProj.result
  rw [entry_edge, entry_wrel, entry_brel]
  exact edge_form _ _ _

end Cert.KernelIdeal.Final

end
-- ==== Proof.LibScatterRows.lean ====
/-
  A float scatter-add whose updates are ROWS, read at an index of the extended reals.

  The operand is an [N, C] array, the scatter indices an [E, 1] array of integers and the updates an [E, C]
  array: update row e is added, column by column, into operand row idx[e, 0].  The start index is read as a
  signed integer and is not clamped, so a row whose index lies outside [0, N) contributes nothing.  At an
  element (r, k) the result is therefore the operand's element plus the sum, over the update rows e whose index
  is r, of the update's element (e, k).
-/
import Idealize.ShloMosaic.PureOps.Ideal
import Idealize.ShloMosaic.Lib.ValueIdx

noncomputable section

namespace Idealize.ShloMosaic.ScatterRows

open Idealize.ShloMosaic Idealize.ShloMosaic.ValueIdx

/-- The dimension numbers of a row scatter: the updates' axis 1 is the window axis, the operand's axis 0 is the
    one the window does not span and the one the start index addresses, and the index vector is the scatter
    indices' axis 1 (of extent one). -/
abbrev rowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)

/-- On the row axis the window starts at the update row's index. -/
theorem start_row (idx : IVec ⟨2, ![E, 1]⟩ w) (j : (⟨2, ![E, C]⟩ : Shape).Idx) :
    (rowsDims N C E wf).start j idx 0 = (idx (ix2 (j 0) ⟨0, Nat.one_pos⟩)).toInt := by
  unfold ScatterDims.start
  rw [dif_pos (show (0 : Fin 2) ∈ (rowsDims N C E wf).scatterDimsToOperandDims from List.mem_singleton.mpr rfl)]
  congr 2
  funext b
  refine Fin.ext ?_
  match b with
  | ⟨0, _⟩ => rfl
  | ⟨1, _⟩ => rfl

/-- On the column axis the window starts at 0: no start index addresses it. -/
theorem start_col (idx : IVec ⟨2, ![E, 1]⟩ w) (j : (⟨2, ![E, C]⟩ : Shape).Idx) :
    (rowsDims N C E wf).start j idx 1 = 0 := by
  unfold ScatterDims.start
  rw [dif_neg (show (1 : Fin 2) ∉ ([0] : List (Fin 2)) from by decide)]

/-- The window does not span the row axis. -/
theorem window_row (j : (⟨2, ![E, C]⟩ : Shape).Idx) : (rowsDims N C E wf).window j 0 = 0 := by
  have h0 : (0 : Fin 2) ∉ (rowsDims N C E wf).sKept :=
    (show (0 : Fin 2) ∉ (List.finRange 2).filter (fun a => a ∉ ([0] : List (Fin 2))) from by decide)
  unfold ScatterDims.window
  rw [dif_neg h0]

/-- Along the column axis the window coordinate is the update's column. -/
theorem window_col (j : (⟨2, ![E, C]⟩ : Shape).Idx) : (rowsDims N C E wf).window j 1 = (j 1).val := by
  have h1 : (1 : Fin 2) ∈ (rowsDims N C E wf).sKept :=
    (show (1 : Fin 2) ∈ (List.finRange 2).filter (fun a => a ∉ ([0] : List (Fin 2))) from by decide)
  unfold ScatterDims.window
  rw [dif_pos h1]
  rfl

/-- Update element j lands on operand element i exactly when its row's index, read signed, is i's row and its
    column is i's column. -/
theorem resultIdx?_eq_some_iff (idx : IVec ⟨2, ![E, 1]⟩ w) (j : (⟨2, ![E, C]⟩ : Shape).Idx)
    (i : (⟨2, ![N, C]⟩ : Shape).Idx) :
    (rowsDims N C E wf).resultIdx? j idx = some i ↔
      (idx (ix2 (j 0) ⟨0, Nat.one_pos⟩)).toInt = ((i 0).val : Int) ∧ (j 1).val = (i 1).val := by
  have hi0 : (i 0).val < N := idx2_lt0 i
  have hi1 : (i 1).val < C := idx2_lt1 i
  have hj1 : (j 1).val < C := idx2_lt1 j
  unfold ScatterDims.resultIdx?
  constructor
  · intro h
    split at h
    · rename_i hc
      have h' := Option.some.inj h
      have e0 : ((rowsDims N C E wf).start j idx 0 + ((rowsDims N C E wf).window j 0 : Int)).toNat = (i 0).val :=
        congrArg (fun f => (f 0).val) h'
      have e1 : ((rowsDims N C E wf).start j idx 1 + ((rowsDims N C E wf).window j 1 : Int)).toNat = (i 1).val :=
        congrArg (fun f => (f 1).val) h'
      have c0 := hc 0
      rw [start_row, window_row] at e0 c0
      rw [start_col, window_col] at e1
      constructor <;> omega
    · exact absurd h (by simp)
  · rintro ⟨h0, h1⟩
    have hc : ∀ a, 0 ≤ (rowsDims N C E wf).start j idx a + ((rowsDims N C E wf).window j a : Int) ∧
        (rowsDims N C E wf).start j idx a + ((rowsDims N C E wf).window j a : Int) < ((⟨2, ![N, C]⟩ : Shape).size a : Int) := by
      rw [Fin.forall_fin_two]
      constructor
      · rw [start_row, window_row, h0]
        show (0 : Int) ≤ ((i 0).val : Int) + ((0 : Nat) : Int) ∧ ((i 0).val : Int) + ((0 : Nat) : Int) < (N : Int)
        omega
      · rw [start_col, window_col]
        show (0 : Int) ≤ 0 + ((j 1).val : Int) ∧ 0 + ((j 1).val : Int) < (C : Int)
        omega
    rw [dif_pos hc]
    congr 1
    funext a
    refine Fin.ext ?_
    revert a
    rw [Fin.forall_fin_two]
    constructor
    · show ((rowsDims N C E wf).start j idx 0 + ((rowsDims N C E wf).window j 0 : Int)).toNat = (i 0).val
      rw [start_row, window_row, h0]
      omega
    · show ((rowsDims N C E wf).start j idx 1 + ((rowsDims N C E wf).window j 1 : Int)).toNat = (i 1).val
      rw [start_col, window_col]
      omega

/-- THE ROW SCATTER-ADD READ AT (r, k): the operand's element plus the sum of the updates' column k over the update
    rows whose index is r. -/
theorem hostScatterAdd_apply (x : (⟨2, ![N, C]⟩ : Shape).Idx → EReal) (idx : IVec ⟨2, ![E, 1]⟩ w)
    (upd : (⟨2, ![E, C]⟩ : Shape).Idx → EReal) (r : Fin N) (k : Fin C) :
    Ideal.hostScatterAdd (rowsDims N C E wf) x idx upd (ix2 r k)
      = x (ix2 r k) + ∑ e ∈ Finset.univ.filter (fun e : Fin E => (idx (ix2 e ⟨0, Nat.one_pos⟩)).toInt = (r.val : Int)),
          upd (ix2 e k) := by
  unfold Ideal.hostScatterAdd
  congr 1
  rw [Finset.sum_filter, sum_idx2, Finset.sum_filter]
  refine Finset.sum_congr rfl fun e _ => ?_
  simp only [resultIdx?_eq_some_iff]
  by_cases he : (idx (ix2 e ⟨0, Nat.one_pos⟩)).toInt = (r.val : Int)
  · rw [if_pos he]
    rw [Finset.sum_eq_single k]
    · rw [if_pos ⟨he, rfl⟩]
    · intro b _ hb
      rw [if_neg]
      rintro ⟨-, h⟩
      exact hb (Fin.ext h)
    · intro h; exact absurd (Finset.mem_univ k) h
  · rw [if_neg he]
    refine Finset.sum_eq_zero fun b _ => ?_
    rw [if_neg]
    rintro ⟨h, -⟩
    exact he h

end Idealize.ShloMosaic.ScatterRows

end
-- ==== Proof.MessageSums.lean ====
/-
  The law that joins the two programs: a scatter-add of differences is the difference of the scatter-adds.

  Summing, at every node, the messages a - b of the edges that point at it gives the sum of the a's minus the
  sum of the b's.  On the extended reals this needs every summand FINITE (a sum holding both infinities has
  no difference to split), which is where the finiteness of the inputs is used.  The scatter-add into the
  zero array, read at (r, k), is such a sum over the edges whose index is r.
-/
import proofs.«138060_j48103633715705_2_alg».proof.Proof.LibScatterRows

noncomputable section

namespace Cert.MessageSums

open Idealize.ShloMosaic Idealize.ShloMosaic.ValueIdx Idealize.ShloMosaic.ScatterRows

/-- An extended real that is a real number. -/
def IsReal (x : EReal) : Prop := x ≠ ⊤ ∧ x ≠ ⊥

theorem IsReal.eq_coe {x : EReal} (h : IsReal x) : x = ((x.toReal : ℝ) : EReal) :=
  (EReal.coe_toReal h.1 h.2).symm

/-- A finite sum of real numbers, taken on the extended reals, is the real sum. -/
theorem sum_coe {ι : Type} (s : Finset ι) (f : ι → ℝ) :
    ∑ e ∈ s, ((f e : ℝ) : EReal) = ((∑ e ∈ s, f e : ℝ) : EReal) := by
  classical
  induction s using Finset.induction_on
  case empty => simp
  case insert a s ha ih => rw [Finset.sum_insert ha, Finset.sum_insert ha, ih, EReal.coe_add]

/-- Over finite summands, the sum of the differences is the difference of the sums. -/
theorem sum_sub {ι : Type} (s : Finset ι) (A B : ι → EReal) (hA : ∀ e, IsReal (A e)) (hB : ∀ e, IsReal (B e)) :
    ∑ e ∈ s, (A e - B e) = ∑ e ∈ s, A e - ∑ e ∈ s, B e := by
  have eA : ∑ e ∈ s, A e = ((∑ e ∈ s, (A e).toReal : ℝ) : EReal) := by
    rw [← sum_coe]; exact Finset.sum_congr rfl fun e _ => (hA e).eq_coe
  have eB : ∑ e ∈ s, B e = ((∑ e ∈ s, (B e).toReal : ℝ) : EReal) := by
    rw [← sum_coe]; exact Finset.sum_congr rfl fun e _ => (hB e).eq_coe
  have eAB : ∑ e ∈ s, (A e - B e) = ((∑ e ∈ s, ((A e).toReal - (B e).toReal) : ℝ) : EReal) := by
    rw [← sum_coe]
    refine Finset.sum_congr rfl fun e _ => ?_
    rw [EReal.coe_sub, ← (hA e).eq_coe, ← (hB e).eq_coe]
  rw [eA, eB, eAB, Finset.sum_sub_distrib, EReal.coe_sub]

variable {N C E w : Nat} (wf : ScatterDims.WF ⟨2, ![N, C]⟩ ⟨2, ![E, 1]⟩ ⟨2, ![E, C]⟩ [1] [0] [0] 1)

/-- THE LAW: into an array that is zero, scattering the rows a - b adds up to scattering the rows a minus scattering
    the rows b, element by element, when every a and b is finite. -/
theorem scatter_sub (z : (⟨2, ![N, C]⟩ : Shape).Idx → EReal) (hz : ∀ i, z i = 0) (idx : IVec ⟨2, ![E, 1]⟩ w)
    (A B : (⟨2, ![E, C]⟩ : Shape).Idx → EReal) (hA : ∀ j, IsReal (A j)) (hB : ∀ j, IsReal (B j))
    (i : (⟨2, ![N, C]⟩ : Shape).Idx) :
    Ideal.hostScatterAdd (rowsDims N C E wf) z idx (fun j => A j - B j) i
      = Ideal.hostScatterAdd (rowsDims N C E wf) z idx A i - Ideal.hostScatterAdd (rowsDims N C E wf) z idx B i := by
  obtain ⟨r, k, rfl⟩ : ∃ (r : Fin N) (k : Fin C), i = ix2 r k := ⟨i 0, i 1, eq_ix2 i⟩
  rw [hostScatterAdd_apply, hostScatterAdd_apply, hostScatterAdd_apply, hz, zero_add, zero_add, zero_add]
  exact sum_sub _ (fun e => A (ix2 e k)) (fun e => B (ix2 e k)) (fun e => hA _) (fun e => hB _)

end Cert.MessageSums

end
-- ==== Proof.Messages.lean ====
/-
  The two programs aggregate the same messages.

  The reference subtracts the edge row from the gathered node row, edge by edge, and sums the differences at the
  target nodes; the kernel sums the gathered node rows and the edge rows at the target nodes separately and subtracts
  the two sums.  The gathered rows, the scatter indices and the zero array summed into are the same arrays in both
  programs, every gathered element is an element of the node embeddings, and under the precondition the node and edge
  embeddings are real numbers: so the two arrays are equal, element by element (the scatter-add of differences is the
  difference of the scatter-adds).
-/
import proofs.«138060_j48103633715705_2_alg».proof.Proof.KernelHost
import proofs.«138060_j48103633715705_2_alg».proof.Proof.Gen.ReferenceIdeal.Read
import proofs.«138060_j48103633715705_2_alg».proof.Proof.MessageSums
import Idealize.ShloMosaic.PureOps.Ideal.Laws

noncomputable section

namespace Cert.Messages

open Idealize.ShloMosaic Idealize.ShloMosaic.ValueIdx Cert.MessageSums
open Cert.KernelIdeal.HostSide Cert.ReferenceIdeal.Read

/-- The array summed into is zero everywhere. -/
theorem zeros_apply (i : Cert.KernelIdeal.S40000x128.Idx) : (zeros i : EReal) = 0 :=
  Ideal.ofBits_zero_f32

/-- Every gathered element is an element of the node embeddings, so it is real when they are. -/
theorem gathered_real (node : FVec Ideal Cert.KernelIdeal.S40000x128 .f32) (frm : IVec Cert.KernelIdeal.S640000 32)
    (h : ∀ i, IsReal (node i)) (j : Cert.KernelIdeal.S640000x128.Idx) : IsReal (gathered node frm j) :=
  h _

/-- The kernel program's scatter-add is the exact sum at the row-scatter dimension numbers. -/
theorem scatter_def (z : FVec Ideal Cert.KernelIdeal.S40000x128 .f32) (idx : IVec Cert.KernelIdeal.S640000x1 32)
    (u : FVec Ideal Cert.KernelIdeal.S640000x128 .f32) :
    Host.scatterAdd Cert.KernelIdeal.scatter_S40000x128_S640000x1_S640000x128_1_0_0_1 z idx u
      = Ideal.hostScatterAdd (ScatterRows.rowsDims 40000 128 640000
          Cert.KernelIdeal.scatter_S40000x128_S640000x1_S640000x128_1_0_0_1.wf) z idx u := rfl

/-- The two programs print the same dimension numbers, zero array, index columns and gathered rows. -/
theorem dims_eq : Cert.ReferenceIdeal.scatter_S40000x128_S640000x1_S640000x128_1_0_0_1
    = Cert.KernelIdeal.scatter_S40000x128_S640000x1_S640000x128_1_0_0_1 := rfl
theorem zeros_eq : val_main_v8 (F := Ideal) = zeros := rfl
theorem col_eq (x : IVec Cert.KernelIdeal.S640000 32) : val_main_v9 (F := Ideal) x = col x := rfl
theorem col_eq' (x : IVec Cert.KernelIdeal.S640000 32) : val_main_v20 (F := Ideal) x = col x := rfl
theorem zeros_eq' : val_main_v19 (F := Ideal) = zeros := rfl
theorem diff_eq (x0 : FVec Ideal Cert.KernelIdeal.S40000x128 .f32) (x1 : FVec Ideal Cert.KernelIdeal.S640000x128 .f32)
    (x2 : IVec Cert.KernelIdeal.S640000 32) :
    val_main_v7 (F := Ideal) x0 x1 x2 = fun j => (gathered x0 x2 j : EReal) - x1 j := rfl
theorem diff_eq' (x0 : FVec Ideal Cert.KernelIdeal.S40000x128 .f32) (x1 : FVec Ideal Cert.KernelIdeal.S640000x128 .f32)
    (x3 : IVec Cert.KernelIdeal.S640000 32) :
    val_main_v18 (F := Ideal) x0 x1 x3 = fun j => (gathered x0 x3 j : EReal) - x1 j := rfl

/-- Summing, at the nodes idx names, the rows (gathered - edge) is summing the gathered rows minus summing the edge
    rows. -/
theorem split (x0 : FVec Ideal Cert.KernelIdeal.S40000x128 .f32) (x1 : FVec Ideal Cert.KernelIdeal.S640000x128 .f32)
    (frm tgt : IVec Cert.KernelIdeal.S640000 32) (h0 : ∀ i, IsReal (x0 i)) (h1 : ∀ j, IsReal (x1 j)) :
    Host.scatterAdd Cert.KernelIdeal.scatter_S40000x128_S640000x1_S640000x128_1_0_0_1 zeros (col tgt)
        (fun j => (gathered x0 frm j : EReal) - x1 j)
      = messages x0 x1 frm tgt := by
  funext i
  have key := scatter_sub (N := 40000) (C := 128) (E := 640000)
    Cert.KernelIdeal.scatter_S40000x128_S640000x1_S640000x128_1_0_0_1.wf zeros zeros_apply (col tgt)
    (gathered x0 frm) x1 (gathered_real x0 frm h0) h1 i
  rw [← scatter_def, ← scatter_def, ← scatter_def] at key
  exact key

/-- The reference's out-messages are the kernel's. -/
theorem out_eq (x0 : FVec Ideal Cert.KernelIdeal.S40000x128 .f32) (x1 : FVec Ideal Cert.KernelIdeal.S640000x128 .f32)
    (x2 x3 : IVec Cert.KernelIdeal.S640000 32) (h0 : ∀ i, IsReal (x0 i)) (h1 : ∀ j, IsReal (x1 j)) :
    val_main_v10 (F := Ideal) x0 x1 x2 x3 = messages x0 x1 x2 x3 := by
  unfold val_main_v10
  rw [dims_eq, zeros_eq, col_eq, diff_eq]
  exact split x0 x1 x2 x3 h0 h1

/-- The reference's in-messages are the kernel's. -/
theorem in_eq (x0 : FVec Ideal Cert.KernelIdeal.S40000x128 .f32) (x1 : FVec Ideal Cert.KernelIdeal.S640000x128 .f32)
    (x2 x3 : IVec Cert.KernelIdeal.S640000 32) (h0 : ∀ i, IsReal (x0 i)) (h1 : ∀ j, IsReal (x1 j)) :
    val_main_v21 (F := Ideal) x0 x1 x2 x3 = messages x0 x1 x3 x2 := by
  unfold val_main_v21
  rw [dims_eq, zeros_eq', col_eq', diff_eq']
  exact split x0 x1 x3 x2 h0 h1

end Cert.Messages

end
-- ==== Proof.RefSide.lean ====
/-
  The reference, read element by element.

  Its node output at (r, q) is ((sum over k of ho (r, k) * W_O (q, k) + b_O q) + sum over k of hi (r, k) * W_I (q, k)) + b_I q
  over its own aggregated message arrays ho and hi, which is the specification's node output after regrouping the
  four terms; its edge output is the specification's as it stands.  The transposes and the broadcasts only move
  indices.
-/
import proofs.«138060_j48103633715705_2_alg».proof.Proof.Gen.ReferenceIdeal.Read
import proofs.«138060_j48103633715705_2_alg».proof.Proof.Spec

noncomputable section

namespace Cert.ReferenceIdeal.RefSide

open Cert.ReferenceIdeal Cert.ReferenceIdeal.Read Idealize.ShloMosaic Idealize.ShloMosaic.ValueIdx

theorem lrow (r : Fin 40000) (q k : Fin 128) : lidx_main_v23 (ix2 r q) k = ix2 r k :=
  funext fun a => Fin.ext (by match a with | ⟨0, _⟩ => rfl | ⟨1, _⟩ => rfl)
theorem wcol (r : Fin 40000) (q k : Fin 128) : idx_main_v22 (ridx_main_v23 (ix2 r q) k) = ix2 q k :=
  funext fun a => Fin.ext (by match a with | ⟨0, _⟩ => rfl | ⟨1, _⟩ => rfl)
theorem lrow' (r : Fin 40000) (q k : Fin 128) : lidx_main_v28 (ix2 r q) k = ix2 r k :=
  funext fun a => Fin.ext (by match a with | ⟨0, _⟩ => rfl | ⟨1, _⟩ => rfl)
theorem wcol' (r : Fin 40000) (q k : Fin 128) : idx_main_v27 (ridx_main_v28 (ix2 r q) k) = ix2 q k :=
  funext fun a => Fin.ext (by match a with | ⟨0, _⟩ => rfl | ⟨1, _⟩ => rfl)
theorem bcol (r : Fin 40000) (q : Fin 128) : idx_main_v24 (idx_main_v25 (ix2 r q)) = ix1 q :=
  funext fun a => Fin.ext (by match a with | ⟨0, _⟩ => rfl)
theorem bcol' (r : Fin 40000) (q : Fin 128) : idx_main_v30 (idx_main_v31 (ix2 r q)) = ix1 q :=
  funext fun a => Fin.ext (by match a with | ⟨0, _⟩ => rfl)
theorem erow (r : Fin 640000) (q k : Fin 128) : lidx_main_v34 (ix2 r q) k = ix2 r k :=
  funext fun a => Fin.ext (by match a with | ⟨0, _⟩ => rfl | ⟨1, _⟩ => rfl)
theorem ecol (r : Fin 640000) (q k : Fin 128) : idx_main_v33 (ridx_main_v34 (ix2 r q) k) = ix2 q k :=
  funext fun a => Fin.ext (by match a with | ⟨0, _⟩ => rfl | ⟨1, _⟩ => rfl)
theorem ebcol (r : Fin 640000) (q : Fin 128) : idx_main_v35 (idx_main_v36 (ix2 r q)) = ix1 q :=
  funext fun a => Fin.ext (by match a with | ⟨0, _⟩ => rfl)

/-- The reference's node output is the specification's, over the reference's own aggregated messages. -/
theorem node_eq (x0 : FVec Ideal S40000x128 .f32) (x1 : FVec Ideal S640000x128 .f32) (x2 x3 : IVec S640000 32)
    (x4 : FVec Ideal S128x128 .f32) (x5 : FVec Ideal S128 .f32) (x6 : FVec Ideal S128x128 .f32) (x7 : FVec Ideal S128 .f32) :
    val_main_v32 (F := Ideal) x0 x1 x2 x3 x4 x5 x6 x7
      = Cert.Spec.nodeOut (val_main_v10 (F := Ideal) x0 x1 x2 x3) (val_main_v21 (F := Ideal) x0 x1 x2 x3) x4 x6 x5 x7 := by
  funext i
  obtain ⟨r, q, rfl⟩ : ∃ (r : Fin 40000) (q : Fin 128), i = ix2 r q := ⟨i 0, i 1, eq_ix2 i⟩
  rw [val_main_v32_apply, val_main_v29_apply, val_main_v26_apply, val_main_v23_apply, val_main_v28_apply,
    val_main_v25_apply, val_main_v24_apply, val_main_v31_apply, val_main_v30_apply]
  simp only [val_main_v22_apply, val_main_v27_apply, lrow, wcol, lrow', wcol', bcol, bcol']
  exact Cert.Spec.regroup _ _ _ _

/-- The reference's edge output is the specification's. -/
theorem edge_eq (x1 : FVec Ideal S640000x128 .f32) (x8 : FVec Ideal S128x128 .f32) (x9 : FVec Ideal S128 .f32) :
    val_main_v37 (F := Ideal) x1 x8 x9 = Cert.Spec.edgeOut x1 x8 x9 := by
  funext i
  obtain ⟨r, q, rfl⟩ : ∃ (r : Fin 640000) (q : Fin 128), i = ix2 r q := ⟨i 0, i 1, eq_ix2 i⟩
  rw [val_main_v37_apply, val_main_v34_apply, val_main_v36_apply, val_main_v35_apply]
  simp only [val_main_v33_apply, erow, ecol, ebcol]
  rfl

end Cert.ReferenceIdeal.RefSide

end
-- ==== Proof.Finite.lean ====
/-
  From the precondition to finiteness.

  The precondition says, of each float input, that every element's absolute value is below +infinity.  Of the node
  embeddings and the edge embeddings (the two arrays whose elements are summed after a subtraction) this gives that
  every element is a real number: an extended real whose absolute value max x (-x) is below +infinity is neither
  infinity.
-/
import proofs.«138060_j48103633715705_2_alg».proof.Pre_finite_inputs
import proofs.«138060_j48103633715705_2_alg».proof.Proof.MessageSums
import Idealize.ShloMosaic.Lib.ReduceAll
import Idealize.ShloMosaic.Lib.Affine
import Idealize.ShloMosaic.Lib.ValueIdx
import Idealize.ShloMosaic.PureOps.Ideal

noncomputable section

namespace Cert.Pre_finite_inputs.Finite

open Cert.Pre_finite_inputs Idealize.ShloMosaic Idealize.ShloMosaic.ValueIdx Cert.MessageSums

variable [Facts]

instance : Subsingleton S_.Idx := ⟨fun a b => funext fun d => d.elim0⟩

/-- The f32 pattern of +infinity denotes +infinity. -/
theorem top_bits : Ideal.ofBits .f32 0x7F800000#32 = (⊤ : EReal) := by simp [Ideal.ofBits, Ideal.ieee]

/-- An extended real whose absolute value is below +infinity is a real number. -/
theorem isReal_of_abs_lt (x : EReal) (h : Ideal.cmp .olt (max x (-x)) (Ideal.ofBits .f32 0x7F800000#32) = 1#1) :
    IsReal x := by
  rw [top_bits] at h
  have hlt : max x (-x) < ⊤ := by
    by_contra hn
    simp [Ideal.cmp, hn] at h
  constructor
  · intro e; rw [e] at hlt; simp at hlt
  · intro e; rw [e] at hlt; simp at hlt

/-- A conjunction of two one-bit words that is 1 has both words 1. -/
theorem both {x y : IVec S_ 1} (h : andi x y ix0 = 1#1) : x ix0 = 1#1 ∧ y ix0 = 1#1 := IntOp.andi_eq_one.mp h

/-- Under the precondition every node embedding and every edge embedding is a real number. -/
theorem node_edge_real (a0 : FVec Ideal S40000x128 .f32) (a1 : FVec Ideal S640000x128 .f32) (a2 a3 : IVec S640000 32)
    (a4 : FVec Ideal S128x128 .f32) (a5 : FVec Ideal S128 .f32) (a6 : FVec Ideal S128x128 .f32) (a7 : FVec Ideal S128 .f32)
    (a8 : FVec Ideal S128x128 .f32) (a9 : FVec Ideal S128 .f32)
    (h : fn (F := Ideal) a0 a1 a2 a3 a4 a5 a6 a7 a8 a9 = fun _ => 1#1) :
    (∀ i, IsReal (a0 i)) ∧ (∀ i, IsReal (a1 i)) := by
  have h1 := congrFun h ix0
  dsimp only [fn, fn_part1, fn_part2] at h1
  have h8 := (both (both (both (both (both (both h1).1).1).1).1).1).1
  obtain ⟨h3, h7⟩ := both h8
  constructor
  · intro i
    exact isReal_of_abs_lt _ (Host.reduce_andi_all _ _ _ _ ix0 h3 i)
  · intro i
    exact isReal_of_abs_lt _ (Host.reduce_andi_all _ _ _ _ ix0 h7 i)

end Cert.Pre_finite_inputs.Finite

end
-- ==== Proof.lean ====
/-
  The claims of this certificate: the message-passing kernel against its reference, on the extended reals.

  Both programs gather, for every edge, a node row, and sum messages at nodes.  The reference sums the differences
  (node row minus edge row); the kernel sums the node rows and the edge rows separately and subtracts, which is
  the same array when every embedding is finite (the precondition) because a finite sum of real differences is
  the difference of the sums.  From the aggregated messages both compute the node output
      ho W_O^T + hi W_I^T + b_O + b_I
  (the kernel in blocks of 4000 rows with the two biases added first, the reference as whole products with the
  biases added one at a time: addition is commutative and associative) and the edge output  e W_rel^T + b_rel
  (the kernel in blocks of 8000 rows).  Narrowing to bf16 is the identity on the extended reals.

  The three frames: each kernel program's is its generated frame certificate; the reference's is its run with the
  results dropped.  The ideal pass rewrote nothing, so the idealization claim is trivial.
-/
import proofs.«138060_j48103633715705_2_alg».proof.Defs
import proofs.«138060_j48103633715705_2_alg».proof.Proof.Gen.Kernel
import proofs.«138060_j48103633715705_2_alg».proof.Proof.Gen.Kernel.Skeleton
import proofs.«138060_j48103633715705_2_alg».proof.Proof.Gen.Kernel.Launch
import proofs.«138060_j48103633715705_2_alg».proof.Proof.Gen.Kernel.Points
import proofs.«138060_j48103633715705_2_alg».proof.Proof.Gen.Kernel.Frame
import proofs.«138060_j48103633715705_2_alg».proof.Proof.Gen.KernelIdeal
import proofs.«138060_j48103633715705_2_alg».proof.Proof.Gen.KernelIdeal.Skeleton
import proofs.«138060_j48103633715705_2_alg».proof.Proof.Gen.KernelIdeal.Launch
import proofs.«138060_j48103633715705_2_alg».proof.Proof.Gen.KernelIdeal.Points
import proofs.«138060_j48103633715705_2_alg».proof.Proof.Gen.KernelIdeal.Frame
import proofs.«138060_j48103633715705_2_alg».proof.Proof.Gen.ReferenceIdeal
import proofs.«138060_j48103633715705_2_alg».proof.Proof.Gen.ReferenceIdeal.Run
import proofs.«138060_j48103633715705_2_alg».proof.Proof.Gen.ReferenceIdeal.Read
import proofs.«138060_j48103633715705_2_alg».proof.Proof.Gen.Pre_finite_inputs
import proofs.«138060_j48103633715705_2_alg».proof.Proof.KernelRun
import proofs.«138060_j48103633715705_2_alg».proof.Proof.KernelFinal
import proofs.«138060_j48103633715705_2_alg».proof.Proof.Messages
import proofs.«138060_j48103633715705_2_alg».proof.Proof.RefSide
import proofs.«138060_j48103633715705_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- At the ideal instance the kernel's node output array ends at the specification's node output over the kernel's
    aggregated messages and its edge output array at the specification's edge output; the reference's two results
    are the same functions of arguments that agree, its aggregated messages being the kernel's under the
    precondition. -/
theorem algebraic : Cert.algebraic_KernelIdeal_ReferenceIdeal := by
  intro m ρ m' ρ' hpre hagree
  refine ⟨fun c => Cert.Spec.nodeOut
      (Cert.KernelIdeal.HostSide.messages (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (Cert.KernelIdeal.HostSide.messages (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)),
    fun c => Cert.Spec.edgeOut (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?hk, ?hr⟩
  case hk =>
    exact (θ_run Cert.KernelIdeal.defs _ _).mono
        (fun r h c => ⟨(h c).1.trans (Cert.KernelIdeal.Final.node_final m ρ c),
          (h c).2.1.trans (Cert.KernelIdeal.Final.edge_final m ρ c), (h c).2.2⟩)
        (Cert.KernelIdeal.Outputs.run_outputs (F := Ideal) m ρ)
  case hr =>
    refine (θ_run Cert.ReferenceIdeal.defs _ _).mono (fun _ h c => ⟨(h c).1.trans ?_, (h c).2.1.trans ?_, (h c).2.2⟩)
      (Cert.ReferenceIdeal.Value.run (F := Ideal) m' ρ')
    · obtain ⟨h0, h1⟩ := Cert.Pre_finite_inputs.Finite.node_edge_real _ _ _ _ _ _ _ _ _ _ (hpre c)
      obtain ⟨e0, e1, e2, e3, e4, e5, e6, e7, e8, e9⟩ := hagree c
      rw [e0, e1, e2, e3, e4, e5, e6, e7]
      rw [Cert.ReferenceIdeal.Read.val_main_v32_eq, Cert.ReferenceIdeal.RefSide.node_eq,
        Cert.Messages.out_eq _ _ _ _ h0 h1, Cert.Messages.in_eq _ _ _ _ h0 h1]
    · obtain ⟨e0, e1, e2, e3, e4, e5, e6, e7, e8, e9⟩ := hagree c
      rw [e1, e8, e9]
      rw [Cert.ReferenceIdeal.Read.val_main_v37_eq, Cert.ReferenceIdeal.RefSide.edge_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
